-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256 : Shape := ⟨1, ![256]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S1x256x512x512 .f32) (main_arg1 : FVec F S256 .f32) (main_arg2 : FVec F S256 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S1x256x512x512 : Shape := ⟨4, ![1, 256, 512, 512]⟩
abbrev S256 : Shape := ⟨1, ![256]⟩
abbrev S256x1x1 : Shape := ⟨3, ![256, 1, 1]⟩
abbrev S1x8x512x512 : Shape := ⟨4, ![1, 8, 512, 512]⟩
abbrev S8x1x1 : Shape := ⟨3, ![8, 1, 1]⟩
abbrev S1x8x512 : Shape := ⟨3, ![1, 8, 512]⟩
abbrev S1x8x512x1 : Shape := ⟨4, ![1, 8, 512, 1]⟩
abbrev S1x8x1 : Shape := ⟨3, ![1, 8, 1]⟩
abbrev S1x8x1x1 : Shape := ⟨4, ![1, 8, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x256x512x512, .f32⟩
  | .hbm, ⟨1, _⟩ => ⟨S256, .f32⟩
  | .hbm, ⟨2, _⟩ => ⟨S256, .f32⟩
  | .hbm, ⟨3, _⟩ => ⟨S256x1x1, .f32⟩
  | .hbm, ⟨4, _⟩ => ⟨S1x256x512x512, .f32⟩
  | .local _ .vmem, ⟨0, _⟩ => ⟨S1x8x512x512, .f32⟩
  | .local _ .vmem, ⟨1, _⟩ => ⟨S1x8x512x512, .f32⟩
  | .local _ .vmem, ⟨2, _⟩ => ⟨S8x1x1, .f32⟩
  | .local _ .vmem, ⟨3, _⟩ => ⟨S8x1x1, .f32⟩
  | .local _ .vmem, ⟨4, _⟩ => ⟨S1x8x512x512, .f32⟩
  | .local _ .vmem, ⟨5, _⟩ => ⟨S1x8x512x512, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256_S256x1x1 : S256.ShapeCasts S256x1x1
  inb_S1x8x512x512_S1x8x512x512_0_0_0_0 : ∀ a, (![0, 0, 0, 0] : Fin 4 → Nat) a + S1x8x512x512.size a ≤ S1x8x512x512.size a
  h_S1x8x512x512 : 0 < S1x8x512x512.numel
  reduces_S1x8x512x512_S1x8x512 : S1x8x512x512.Reduces [3] S1x8x512
  shapeCasts_S1x8x512_S1x8x512x1 : S1x8x512.ShapeCasts S1x8x512x1
  reduces_S1x8x512x1_S1x8x1 : S1x8x512x1.Reduces [2] S1x8x1
  shapeCasts_S1x8x1_S1x8x1x1 : S1x8x1.ShapeCasts S1x8x1x1
  broadcasts_S1x8x1x1_S1x8x512x512 : S1x8x1x1.Broadcasts S1x8x512x512
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  shapeCasts_S8x1x1_S1x8x1x1 : S8x1x1.ShapeCasts S1x8x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S1x256x512x512.size a
  hwx0_0 : ∀ i : grid0.Coords, EltTy.bits .f32 = 32 ∨ (Rect.block (s := S1x256x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1.size a ≤ S256x1x1.size a
  hwx0_1 : ∀ i : grid0.Coords, EltTy.bits .f32 = 32 ∨ (Rect.block (s := S256x1x1) S8x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x512.size a ≤ S1x256x512x512.size a
  hwx0_2 : ∀ i : grid0.Coords, EltTy.bits .f32 = 32 ∨ (Rect.block (s := S1x256x512x512) S1x8x512x512.size (cc0_transform_2 i) (hinb0_2 i)).WholeWords (EltTy.packing .f32)

variable [Facts₀]

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x512x512 : Shape := ⟨4, ![1, 256, 512, 512]⟩
abbrev S256 : Shape := ⟨1, ![256]⟩
abbrev S_ : Shape := ⟨0, ![]⟩
abbrev S1x256 : Shape := ⟨2, ![1, 256]⟩
abbrev S1x256x1x1 : Shape := ⟨4, ![1, 256, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S1x256, .f32⟩
  | .hbm, ⟨5, _⟩ => ⟨S1x256x1x1, .f32⟩
  | .hbm, ⟨6, _⟩ => ⟨S_, .f32⟩
  | .hbm, ⟨7, _⟩ => ⟨S1x256x1x1, .f32⟩
  | .hbm, ⟨8, _⟩ => ⟨S1x256x1x1, .f32⟩
  | .hbm, ⟨9, _⟩ => ⟨S_, .i32⟩
  | .hbm, ⟨10, _⟩ => ⟨S_, .f32⟩
  | .hbm, ⟨11, _⟩ => ⟨S1x256, .f32⟩
  | .hbm, ⟨12, _⟩ => ⟨S1x256x1x1, .f32⟩
  | .hbm, ⟨13, _⟩ => ⟨S_, .f32⟩
  | .hbm, ⟨14, _⟩ => ⟨S1x256x1x1, .f32⟩
  | .hbm, ⟨15, _⟩ => ⟨S1x256x1x1, .f32⟩
  | .hbm, ⟨16, _⟩ => ⟨S1x256x512x512, .f32⟩
  | .hbm, ⟨17, _⟩ => ⟨S1x256x512x512, .f32⟩
  | .hbm, ⟨18, _⟩ => ⟨S1x256x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x256, .f32⟩
  | .hbm, ⟨24, _⟩ => ⟨S1x256x1x1, .f32⟩
  | .hbm, ⟨25, _⟩ => ⟨S1x256x1x1, .f32⟩
  | .hbm, ⟨26, _⟩ => ⟨S1x256x1x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1x256x1x1, .f32⟩
  | .hbm, ⟨32, _⟩ => ⟨S1x256x1x1, .f32⟩
  | .hbm, ⟨33, _⟩ => ⟨S1x256x512x512, .f32⟩
  | .hbm, ⟨34, _⟩ => ⟨S1x256x512x512, .f32⟩
  | .hbm, ⟨35, _⟩ => ⟨S_, .f32⟩
  | .hbm, ⟨36, _⟩ => ⟨S1x256x1x1, .f32⟩
  | .hbm, ⟨37, _⟩ => ⟨S1x256x1x1, .f32⟩
  | .hbm, ⟨38, _⟩ => ⟨S1x256x1x1, .f32⟩
  | .hbm, ⟨39, _⟩ => ⟨S1x256x512x512, .f32⟩
  | .hbm, ⟨40, _⟩ => ⟨S1x256x512x512, .f32⟩
  | .hbm, ⟨41, _⟩ => ⟨S1x256x1x1, .f32⟩
  | .hbm, ⟨42, _⟩ => ⟨S1x256x512x512, .f32⟩
  | .hbm, ⟨43, _⟩ => ⟨S1x256x512x512, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  reducesTo_S1x256x512x512_S1x256_d2_3 : S1x256x512x512.ReducesTo [2, 3] S1x256
  h_S_ : 0 < S_.numel
  bcast_S1x256_S1x256x1x1_0_1 : S1x256.BroadcastsInDim S1x256x1x1 (![0, 1] : Fin 2 → Fin S1x256x1x1.rank)
  bcast_S_S1x256x1x1 : S_.BroadcastsInDim S1x256x1x1 (![] : Fin 0 → Fin S1x256x1x1.rank)
  bcast_S1x256x1x1_S1x256x512x512_0_1_2_3 : S1x256x1x1.BroadcastsInDim S1x256x512x512 (![0, 1, 2, 3] : Fin 4 → Fin S1x256x512x512.rank)
  bcast_S256_S1x256x1x1_1 : S256.BroadcastsInDim S1x256x1x1 (![1] : Fin 1 → Fin S1x256x1x1.rank)

variable [Facts₀]

class Facts : Prop extends Facts₀ where

variable [Facts]
-- ==== Proof.BlockSums.lean ====
/-
  The body's reductions, read on the extended reals.

  The body sums a [1, 8, 512, 512] block in two stages: first along the lanes (axis 3), then — after the lane totals are
  given a trailing unit axis — along the rows (axis 2). At channel `b` of the block the result is the iterated sum
  ∑ h, ∑ w, Q(0, b, h, w): each stage is a sum over one axis's coordinates, and the unit axis in between only renames
  the index.
-/
import proofs.«123054_j80616536146731_2_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-- The index over (0, b, h) of the lane-reduced block with lane `w` put back is (0, b, h, w). -/
theorem lift_lane (b : Fin 8) (h w : Fin 512) :
    (reduces_S1x8x512x512_S1x8x512 : S1x8x512x512.Reduces [3] S1x8x512).lift (ix3 0 b h) w = ix4 0 b h w := by
  funext a; apply Fin.ext
  match a with
  | ⟨0, _⟩ => rfl
  | ⟨1, _⟩ => rfl
  | ⟨2, _⟩ => rfl
  | ⟨3, _⟩ => rfl

/-- The index over (0, b, 0) of the row-reduced block with row `h` put back is (0, b, h, 0). -/
theorem lift_row (b : Fin 8) (h : Fin 512) :
    (reduces_S1x8x512x1_S1x8x1 : S1x8x512x1.Reduces [2] S1x8x1).lift (ix3 0 b 0) h = ix4 0 b h 0 := by
  funext a; apply Fin.ext
  match a with
  | ⟨0, _⟩ => rfl
  | ⟨1, _⟩ => rfl
  | ⟨2, _⟩ => rfl
  | ⟨3, _⟩ => rfl

/-- The lane totals: at (0, b, h) the sum over the lanes. -/
theorem lane_sum (Q : FVec Ideal S1x8x512x512 .f32) (hφ : FKind.Formats .f32)
    (hacc : (0x00000000#32 : BitVec 32) = FKind.add.neutral .f32 hφ) (b : Fin 8) (h : Fin 512) :
    multiReduction .add [3] S1x8x512 Q 0x00000000#32 reduces_S1x8x512x512_S1x8x512 hφ hacc (ix3 0 b h)
      = ∑ w : Fin 512, Q (ix4 0 b h w) := by
  refine (Ideal.multiReduction_add_single Q 0x00000000#32 reduces_S1x8x512x512_S1x8x512 hφ hacc (ix3 0 b h)).trans ?_
  exact Finset.sum_congr rfl fun w _ => congrArg Q (lift_lane b h w)

/-- The trailing unit axis only renames: the cast lane totals at (0, b, h, 0) are the lane totals at (0, b, h). -/
theorem cast_unit (R : FVec Ideal S1x8x512 .f32) (b : Fin 8) (h : Fin 512) :
    shapeCast S1x8x512x1 R shapeCasts_S1x8x512_S1x8x512x1 (ix4 0 b h 0) = R (ix3 0 b h) := by
  refine shapeCast_apply R _ (ix4 0 b h 0) (ix3 0 b h) ?_
  rw [Shape.rowMajor_val_three, Shape.rowMajor_val_four]
  show (0 * 8 + b.val) * 512 + h.val = ((0 * 8 + b.val) * 512 + h.val) * 1 + 0
  omega

/-- THE TWO-STAGE SUM: at channel `b` the body's total of a block `Q` is ∑ h, ∑ w, Q(0, b, h, w). -/
theorem two_stage_sum (Q : FVec Ideal S1x8x512x512 .f32) (hφ hφ' : FKind.Formats .f32)
    (hacc : (0x00000000#32 : BitVec 32) = FKind.add.neutral .f32 hφ)
    (hacc' : (0x00000000#32 : BitVec 32) = FKind.add.neutral .f32 hφ') (b : Fin 8) :
    multiReduction .add [2] S1x8x1
        (shapeCast S1x8x512x1 (multiReduction .add [3] S1x8x512 Q 0x00000000#32 reduces_S1x8x512x512_S1x8x512 hφ hacc)
          shapeCasts_S1x8x512_S1x8x512x1)
        0x00000000#32 reduces_S1x8x512x1_S1x8x1 hφ' hacc' (ix3 0 b 0)
      = ∑ h : Fin 512, ∑ w : Fin 512, Q (ix4 0 b h w) := by
  refine (Ideal.multiReduction_add_single _ 0x00000000#32 reduces_S1x8x512x1_S1x8x1 hφ' hacc' (ix3 0 b 0)).trans ?_
  refine Finset.sum_congr rfl fun h _ => ?_
  rw [lift_row b h, cast_unit _ b h]
  exact lane_sum Q hφ hacc b h

end Cert.KernelIdeal.Block

end
-- ==== Proof.Spec.lean ====
/-
  Per-channel normalisation over the spatial axes, as ONE function of the argument arrays.

  For an array `x` of shape [1, 256, 512, 512] and a per-channel shift `b` of shape [256], channel `c` has
    total  T c   = ∑ h, ∑ w, x(0, c, h, w)
    mean   μ c   = T c / 262144
    spread d(c,h,w) = x(0, c, h, w) − μ c
    sum of squares Q c = ∑ h, ∑ w, d(c,h,w)²
    unbiased variance  v c = Q c / 262143
  and the result at (0, c, h, w) is  d(c,h,w) · (v c + ε)^(-1/2) + b c,
  all read on the extended reals with the library's conventions for the quotient and the inverse square root.
  The three constants are kept as their binary32 words; their values are established where they are used.
-/
import Idealize.ShloMosaic.PureOps.Ideal
import Idealize.ShloMosaic.Lib.ValueIdx

noncomputable section

namespace Cert.ChanNorm

open Idealize.ShloMosaic Idealize.ShloMosaic.ValueIdx

/-- The array's shape and the shift's shape. -/
abbrev SX : Shape := ⟨4, ![1, 256, 512, 512]⟩
abbrev SB : Shape := ⟨1, ![256]⟩

/-- The number of spatial positions of a channel, 262144 = 512 · 512, as its binary32 word. -/
def cN : EReal := Ideal.ofBits .f32 0x48800000#32
/-- One less, 262143: the divisor of the unbiased variance. -/
def cN1 : EReal := Ideal.ofBits .f32 0x487FFFC0#32
/-- The stabiliser ε (the binary32 nearest 1e-5). -/
def cEps : EReal := Ideal.ofBits .f32 0x3727C5AC#32

/-- Channel `c`'s total over its 512 × 512 positions, rows outside, lanes inside. -/
def total (x : SX.Idx → EReal) (c : Fin 256) : EReal := ∑ h : Fin 512, ∑ w : Fin 512, x (ix4 0 c h w)

/-- Channel `c`'s mean. -/
def mean (x : SX.Idx → EReal) (c : Fin 256) : EReal := Ideal.div (total x c) cN

/-- An entry's deviation from its channel's mean. -/
def dev (x : SX.Idx → EReal) (c : Fin 256) (h w : Fin 512) : EReal := x (ix4 0 c h w) - mean x c

/-- Channel `c`'s sum of squared deviations. -/
def sumsq (x : SX.Idx → EReal) (c : Fin 256) : EReal := ∑ h : Fin 512, ∑ w : Fin 512, dev x c h w * dev x c h w

/-- Channel `c`'s unbiased variance. -/
def var (x : SX.Idx → EReal) (c : Fin 256) : EReal := Ideal.div (sumsq x c) cN1

/-- The normalised, shifted entry at channel `c`, row `h`, lane `w`. -/
def entry (x : SX.Idx → EReal) (b : SB.Idx → EReal) (c : Fin 256) (h w : Fin 512) : EReal :=
  dev x c h w * Ideal.rsqrt (var x c + cEps) + b (ix1 c)

/-- The whole result array: `entry` at each index's coordinates. -/
def G (x : SX.Idx → EReal) (b : SB.Idx → EReal) : SX.Idx → EReal :=
  fun i => entry x b (i 1) (i 2) (i 3)

theorem G_ix4 (x : SX.Idx → EReal) (b : SB.Idx → EReal) (c : Fin 256) (h w : Fin 512) :
    G x b (ix4 0 c h w) = entry x b c h w := rfl

/-! ## The same entry as a program that divides by a computed count and by a square root writes it -/

/-- The divisor computed as 262144 less the 32-bit integer 1 converted exactly. -/
def count : EReal := cN - (((1#32 : BitVec 32).toInt : ℝ) : EReal)

/-- The variance as the quotient by `count`, chosen by the guard `count > 0` over a not-a-number word. -/
def varRef (x : SX.Idx → EReal) (c : Fin 256) : EReal :=
  if Ideal.cmp .ogt count (Ideal.ofBits .f32 0x00000000#32) = 1 then Ideal.div (sumsq x c) count
  else Ideal.ofBits .f32 0x7FC00000#32

/-- The entry with the deviation DIVIDED by the square root of (variance + ε). -/
def entryRef (x : SX.Idx → EReal) (b : SB.Idx → EReal) (c : Fin 256) (h w : Fin 512) : EReal :=
  Ideal.div (dev x c h w) (Ideal.sqrt (varRef x c + cEps)) + b (ix1 c)

end Cert.ChanNorm

end
-- ==== Proof.BlockEntry.lean ====
/-
  What the body leaves at one entry of its output block, on the extended reals.

  For the loaded block `P0` of shape [1, 8, 512, 512] and the loaded shifts `P1` of shape [8, 1, 1], the entry at
  channel `b`, row `h`, lane `w` of the stored block is
      (P0(0,b,h,w) − T b / 262144) · ((Q b / 262143) + ε)^(-1/2) + P1(b,0,0),
  with T b = ∑ h, ∑ w, P0(0,b,h,w) the channel's total and Q b the total of the squared deviations: the two-stage sums
  are iterated sums, and the keepdims unit axes, the broadcasts back to the block and the splat constants only rename
  indices.
-/
import proofs.«123054_j80616536146731_2_alg».proof.Proof.BlockSums
import proofs.«123054_j80616536146731_2_alg».proof.Proof.Spec

noncomputable section

namespace Cert.KernelIdeal.Block

open Cert.KernelIdeal Cert.KernelIdeal.Gen Idealize.ShloMosaic Idealize.ShloMosaic.ValueIdx Cert.ChanNorm

/-- A block's channel totals as the body computes them, kept with one unit axis. -/
def chanTotals (Q : FVec Ideal S1x8x512x512 .f32) : FVec Ideal S1x8x1 .f32 :=
  multiReduction .add [2] S1x8x1
    (shapeCast S1x8x512x1 (multiReduction .add [3] S1x8x512 Q 0x00000000#32 reduces_S1x8x512x512_S1x8x512 (.inl rfl) rfl)
      shapeCasts_S1x8x512_S1x8x512x1)
    0x00000000#32 reduces_S1x8x512x1_S1x8x1 (.inl rfl) rfl

/-- A block less its channel means, as the body computes it. -/
def deviations (P0 : FVec Ideal S1x8x512x512 .f32) : FVec Ideal S1x8x512x512 .f32 :=
  subf P0 (broadcastTo S1x8x512x512
    (divf (shapeCast S1x8x1x1 (chanTotals P0) shapeCasts_S1x8x1_S1x8x1x1) (broadcast S1x8x1x1 (Scalar.ofBits .f32 0x48800000#32)))
    broadcasts_S1x8x1x1_S1x8x512x512)

theorem chanTotals_apply (Q : FVec Ideal S1x8x512x512 .f32) (b : Fin 8) :
    chanTotals Q (ix3 0 b 0) = ∑ h : Fin 512, ∑ w : Fin 512, Q (ix4 0 b h w) :=
  two_stage_sum Q _ _ _ _ b

/-- The channel mean spread back over the block, read at (0, b, h, w): the total at (0, b, 0) over 262144. -/
theorem deviations_apply (P0 : FVec Ideal S1x8x512x512 .f32) (b : Fin 8) (h w : Fin 512) :
    deviations P0 (ix4 0 b h w) = P0 (ix4 0 b h w) - Ideal.div (chanTotals P0 (ix3 0 b 0)) cN := by
  have e1 : broadcastTo S1x8x512x512
      (divf (shapeCast S1x8x1x1 (chanTotals P0) shapeCasts_S1x8x1_S1x8x1x1) (broadcast S1x8x1x1 (Scalar.ofBits .f32 0x48800000#32)))
      broadcasts_S1x8x1x1_S1x8x512x512 (ix4 0 b h w)
      = Ideal.div (chanTotals P0 (ix3 0 b 0)) cN := by
    refine (broadcastTo_apply _ _ (ix4 0 b h w) (ix4 0 b 0 0 : S1x8x1x1.Idx) (fun a => ?_)).trans ?_
    · match a with
      | ⟨0, _⟩ => rfl
      | ⟨1, _⟩ => rfl
      | ⟨2, _⟩ => rfl
      | ⟨3, _⟩ => rfl
    · have e2 : shapeCast S1x8x1x1 (chanTotals P0) shapeCasts_S1x8x1_S1x8x1x1 (ix4 0 b 0 0) = chanTotals P0 (ix3 0 b 0) := by
        refine shapeCast_apply _ _ (ix4 0 b 0 0) (ix3 0 b 0) ?_
        rw [Shape.rowMajor_val_three, Shape.rowMajor_val_four]
        show (0 * 8 + b.val) * 1 + 0 = ((0 * 8 + b.val) * 1 + 0) * 1 + 0
        omega
      show Ideal.div (shapeCast S1x8x1x1 (chanTotals P0) shapeCasts_S1x8x1_S1x8x1x1 (ix4 0 b 0 0)) cN = _
      rw [e2]
  show P0 (ix4 0 b h w) - _ = _
  rw [e1]

/-- The entry the body stores at channel `b`, row `h`, lane `w` of its block. -/
def blockEntry (P0 : FVec Ideal S1x8x512x512 .f32) (P1 : FVec Ideal S8x1x1 .f32) (b : Fin 8) (h w : Fin 512) : EReal :=
  (P0 (ix4 0 b h w) - Ideal.div (∑ h' : Fin 512, ∑ w' : Fin 512, P0 (ix4 0 b h' w')) cN)
    * Ideal.rsqrt (Ideal.div (∑ h' : Fin 512, ∑ w' : Fin 512,
        (P0 (ix4 0 b h' w') - Ideal.div (∑ h'' : Fin 512, ∑ w'' : Fin 512, P0 (ix4 0 b h'' w'')) cN)
        * (P0 (ix4 0 b h' w') - Ideal.div (∑ h'' : Fin 512, ∑ w'' : Fin 512, P0 (ix4 0 b h'' w'')) cN)) cN1 + cEps)
    + P1 (ix3 b 0 0)

/-- The block the stores leave, written over the named pieces. -/
theorem E2_eq (P0 : FVec Ideal S1x8x512x512 .f32) (P1 : FVec Ideal S8x1x1 .f32) (y : S1x8x512x512.Idx) :
    Cert.KernelIdeal.Value.E2 (F := Ideal) P0 P1 y
      = (P0 (Cert.KernelIdeal.Value.ix2_0 y) - Ideal.div (chanTotals P0 (Cert.KernelIdeal.Value.ix2_1 y)) cN)
          * Ideal.rsqrt (Ideal.div (chanTotals (mulf (deviations P0) (deviations P0)) (Cert.KernelIdeal.Value.ix2_2 y)) cN1 + cEps)
        + P1 (Cert.KernelIdeal.Value.ix2_3 y) := rfl

/-- THE STORED ENTRY at explicit coordinates. -/
theorem E2_apply (P0 : FVec Ideal S1x8x512x512 .f32) (P1 : FVec Ideal S8x1x1 .f32) (b : Fin 8) (h w : Fin 512) :
    Cert.KernelIdeal.Value.E2 (F := Ideal) P0 P1 (ix4 0 b h w) = blockEntry P0 P1 b h w := by
  have i0 : Cert.KernelIdeal.Value.ix2_0 (ix4 0 b h w) = ix4 0 b h w := by
    funext a; apply Fin.ext
    match a with
    | ⟨0, _⟩ => rfl
    | ⟨1, _⟩ => rfl
    | ⟨2, _⟩ => rfl
    | ⟨3, _⟩ => rfl
  have i1 : Cert.KernelIdeal.Value.ix2_1 (ix4 0 b h w) = ix3 0 b 0 := by
    funext a; apply Fin.ext
    match a with
    | ⟨0, _⟩ => rfl
    | ⟨1, _⟩ => rfl
    | ⟨2, _⟩ => rfl
  have i2 : Cert.KernelIdeal.Value.ix2_2 (ix4 0 b h w) = ix3 0 b 0 := by
    funext a; apply Fin.ext
    match a with
    | ⟨0, _⟩ => rfl
    | ⟨1, _⟩ => rfl
    | ⟨2, _⟩ => rfl
  have i3 : Cert.KernelIdeal.Value.ix2_3 (ix4 0 b h w) = ix3 b 0 0 := by
    funext a; apply Fin.ext
    match a with
    | ⟨0, _⟩ => rfl
    | ⟨1, _⟩ => rfl
    | ⟨2, _⟩ => rfl
  have q : chanTotals (mulf (deviations P0) (deviations P0)) (ix3 0 b 0)
      = ∑ h' : Fin 512, ∑ w' : Fin 512,
        (P0 (ix4 0 b h' w') - Ideal.div (∑ h'' : Fin 512, ∑ w'' : Fin 512, P0 (ix4 0 b h'' w'')) cN)
        * (P0 (ix4 0 b h' w') - Ideal.div (∑ h'' : Fin 512, ∑ w'' : Fin 512, P0 (ix4 0 b h'' w'')) cN) := by
    rw [chanTotals_apply]
    refine Finset.sum_congr rfl fun h' _ => Finset.sum_congr rfl fun w' _ => ?_
    show deviations P0 (ix4 0 b h' w') * deviations P0 (ix4 0 b h' w') = _
    rw [deviations_apply, chanTotals_apply]
  rw [E2_eq, i0, i1, i2, i3, q, chanTotals_apply]
  rfl

end Cert.KernelIdeal.Block

end
-- ==== Proof.KernelArray.lean ====
/-
  From blocks to the whole array.

  Grid point `t` (of 32) works on channels 8t … 8t+7: its input block is those channels of the array, its shift block
  the same eight entries of the shift vector (laid out as [256, 1, 1] by a reshape before the launch), and it writes
  back those channels of the result. So the entry it leaves at channel `b` of its block is the normalised entry of
  channel 8t + b of the whole array, the 32 blocks tile the result, and the result array ends as the one function
  `Cert.ChanNorm.G` of the two argument arrays.
-/
import proofs.«123054_j80616536146731_2_alg».proof.Proof.BlockEntry
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.ChanNorm
open Idealize.ShloMosaic.Pipeline (Dat)

/-- One point's stored entry is the whole array's normalised entry, when the point's blocks are the channel's data:
    stated over variables for the two loaded blocks. -/
theorem point_entry (x : SX.Idx → EReal) (β : SB.Idx → EReal) (P0 : FVec Ideal S1x8x512x512 .f32) (P1 : FVec Ideal S8x1x1 .f32)
    (c : Fin 256) (b : Fin 8) (h0 : ∀ h w : Fin 512, P0 (ix4 0 b h w) = x (ix4 0 c h w)) (h1 : P1 (ix3 b 0 0) = β (ix1 c))
    (h w : Fin 512) :
    Cert.KernelIdeal.Value.E2 (F := Ideal) P0 P1 (ix4 0 b h w) = entry x β c h w := by
  rw [E2_apply]
  simp only [blockEntry, entry, dev, mean, total, var, sumsq, h0, h1]

/-- The shift vector laid out as [256, 1, 1] holds entry `c` at (c, 0, 0). -/
theorem shift_apply (β : FVec Ideal S256 .f32) (c : Fin 256) :
    shapeCast S256x1x1 β shapeCasts_S256_S256x1x1 (ix3 c 0 0) = β (ix1 c) := by
  refine shapeCast_apply β _ (ix3 c 0 0) (ix1 c) ?_
  rw [Shape.rowMajor_val_one, Shape.rowMajor_val_three]
  show c.val = (c.val * 1 + 0) * 1 + 0
  omega

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the 32 grid points: every window's block index is the point's number on the
    channel axis and zero elsewhere. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)

/-- The shift window's array when the region is entered: the shift argument laid out as [256, 1, 1]. -/
theorem V_shift (c : Dev nD) :
    (V m c main_v0 : S256x1x1.Idx → EReal) = shapeCast S256x1x1 (m ((c : Thread nD τ).loc main_arg2)) shapeCasts_S256_S256x1x1 := by
  dsimp only [Gen.V, Gen.hostOps0]; after_results; rfl

/-- Where the output block's entry (0, b, h, w) at point `t` sits in the array: channel 8t + b. -/
theorem emb_out (t : Fin cfg0.N) (b : Fin 8) (h w : Fin 512) (hc : 8 * t.val + b.val < 256) :
    ((cfg0.win 2).blk t).view.emb (ix4 0 b h w) = (ix4 0 ⟨8 * t.val + b.val, hc⟩ h w : S1x256x512x512.Idx) := by
  obtain ⟨_, _, _, _, _, _, _, e0, e1, e2, e3⟩ := idx_facts t
  funext a; apply Fin.ext
  match a with
  | ⟨0, _⟩ => show win0_2.index t (0 : Fin 4) * 1 + 1 * 0 = 0; omega
  | ⟨1, _⟩ => show win0_2.index t (1 : Fin 4) * 8 + 1 * b.val = 8 * t.val + b.val; omega
  | ⟨2, _⟩ => show win0_2.index t (2 : Fin 4) * 512 + 1 * h.val = h.val; omega
  | ⟨3, _⟩ => show win0_2.index t (3 : Fin 4) * 512 + 1 * w.val = w.val; omega

/-- The same for the input block. -/
theorem emb_in (t : Fin cfg0.N) (b : Fin 8) (h w : Fin 512) (hc : 8 * t.val + b.val < 256) :
    ((cfg0.win 0).blk t).view.emb (ix4 0 b h w) = (ix4 0 ⟨8 * t.val + b.val, hc⟩ h w : S1x256x512x512.Idx) := by
  obtain ⟨e0, e1, e2, e3, _⟩ := idx_facts t
  funext a; apply Fin.ext
  match a with
  | ⟨0, _⟩ => show win0_0.index t (0 : Fin 4) * 1 + 1 * 0 = 0; omega
  | ⟨1, _⟩ => show win0_0.index t (1 : Fin 4) * 8 + 1 * b.val = 8 * t.val + b.val; omega
  | ⟨2, _⟩ => show win0_0.index t (2 : Fin 4) * 512 + 1 * h.val = h.val; omega
  | ⟨3, _⟩ => show win0_0.index t (3 : Fin 4) * 512 + 1 * w.val = w.val; omega

/-- And for the shift block: entry (b, 0, 0) at point `t` is entry (8t + b, 0, 0) of the laid-out shift. -/
theorem emb_shift (t : Fin cfg0.N) (b : Fin 8) (hc : 8 * t.val + b.val < 256) :
    ((cfg0.win 1).blk t).view.emb (ix3 b 0 0) = (ix3 ⟨8 * t.val + b.val, hc⟩ 0 0 : S256x1x1.Idx) := by
  obtain ⟨_, _, _, _, e0, e1, e2, _⟩ := idx_facts t
  funext a; apply Fin.ext
  match a with
  | ⟨0, _⟩ => show win0_1.index t (0 : Fin 3) * 8 + 1 * b.val = 8 * t.val + b.val; omega
  | ⟨1, _⟩ => show win0_1.index t (1 : Fin 3) * 1 + 1 * 0 = 0; omega
  | ⟨2, _⟩ => show win0_1.index t (2 : Fin 3) * 1 + 1 * 0 = 0; omega

/-- WHAT POINT `t` WRITES BACK is block `t` of `G` of the two argument arrays. -/
theorem flushed_eq (c : Dev nD) (t : Fin cfg0.N) :
    (dats m 0 c).flushed 2 t
      = ((cfg0.win 2).blk t).view.read (Elt Ideal)
          (G (m ((c : Thread nD τ).loc main_arg0)) (m ((c : Thread nD τ).loc main_arg2))) := by
  rw [Cert.KernelIdeal.Value.flushed2]
  unfold out0_2
  simp only [View.ld_unit_zero (S := S1x8x512x512) hz4, View.ld_unit_zero (S := S8x1x1) hz3]
  funext y
  show View.canon ([⟨r0_0, k0_pay1 (iblk m c 0 t) (iblk m c 1 t)⟩] : List (View.Piece (Elt Ideal) S1x8x512x512 .f32)) y
    = G (m ((c : Thread nD τ).loc main_arg0)) (m ((c : Thread nD τ).loc main_arg2)) (((cfg0.win 2).blk t).view.emb y)
  rw [Cert.KernelIdeal.Value.canon2_eq]
  obtain ⟨b, h, w, rfl⟩ : ∃ (b : Fin 8) (h w : Fin 512), y = ix4 0 b h w :=
    ⟨y 1, y 2, y 3, funext fun a => by
      match a with
      | ⟨0, _⟩ => exact Fin.ext (by have h0 : (y 0).val < 1 := (y 0).isLt; show (y 0).val = 0; omega)
      | ⟨1, _⟩ => rfl
      | ⟨2, _⟩ => rfl
      | ⟨3, _⟩ => rfl⟩
  have ht : t.val < 32 := lt_of_lt_of_eq t.isLt N_0
  have hc : 8 * t.val + b.val < 256 := by have := b.isLt; omega
  rw [emb_out t b h w hc, G_ix4]
  refine point_entry _ _ (iblk m c 0 t) (iblk m c 1 t) ⟨8 * t.val + b.val, hc⟩ b (fun h' w' => ?_) ?_ h w
  · show V m c main_arg0 (((cfg0.win 0).blk t).view.emb (ix4 0 b h' w')) = _
    rw [emb_in t b h' w' hc, V_main_arg0]
  · show V m c main_v0 (((cfg0.win 1).blk t).view.emb (ix3 b 0 0)) = _
    rw [emb_shift t b hc, V_shift, shift_apply]

/-- An index of the array is in point `t`'s block iff each coordinate is in the block's range on its axis. -/
theorem mem_blk (t : Fin cfg0.N) (i : S1x256x512x512.Idx) :
    i ∈ ((cfg0.win 2).blk t).view.set ↔ ∀ a : Fin 4, win0_2.index t a * S1x8x512x512.size a ≤ (i a).val
      ∧ (i a).val < win0_2.index t a * S1x8x512x512.size a + S1x8x512x512.size a := by
  show i ∈ ((View.whole main_v1).slice (win0_2.rect t)).set ↔ _
  rw [View.set_slice_whole, Rect.mem_set_unit]
  exact Iff.rfl

/-- Every index of the result is in some point's block: channel `k` in block `k / 8`. -/
theorem cover (i : S1x256x512x512.Idx) :
    ∃ t : Fin cfg0.N, (cfg0.win 2).flush t = true ∧ i ∈ ((cfg0.win 2).blk t).view.set := by
  have hi0 : (i 0).val < 1 := (i 0).isLt
  have hi1 : (i 1).val < 256 := (i 1).isLt
  have hi2 : (i 2).val < 512 := (i 2).isLt
  have hi3 : (i 3).val < 512 := (i 3).isLt
  have hN : (i 1).val / 8 < cfg0.N := by
    show (i 1).val / 8 < grid0.N
    rw [N_0]; omega
  refine ⟨⟨(i 1).val / 8, hN⟩, flush0_2 _, ?_⟩
  obtain ⟨_, _, _, _, _, _, _, e0, e1, e2, e3⟩ := idx_facts ⟨(i 1).val / 8, hN⟩
  have e1' : win0_2.index ⟨(i 1).val / 8, hN⟩ (1 : Fin 4) = (i 1).val / 8 := e1
  rw [mem_blk]
  intro a
  match a with
  | ⟨0, _⟩ =>
    show win0_2.index ⟨(i 1).val / 8, hN⟩ (0 : Fin 4) * 1 ≤ (i 0).val ∧ (i 0).val < win0_2.index ⟨(i 1).val / 8, hN⟩ (0 : Fin 4) * 1 + 1
    omega
  | ⟨1, _⟩ =>
    show win0_2.index ⟨(i 1).val / 8, hN⟩ (1 : Fin 4) * 8 ≤ (i 1).val ∧ (i 1).val < win0_2.index ⟨(i 1).val / 8, hN⟩ (1 : Fin 4) * 8 + 8
    omega
  | ⟨2, _⟩ =>
    show win0_2.index ⟨(i 1).val / 8, hN⟩ (2 : Fin 4) * 512 ≤ (i 2).val ∧ (i 2).val < win0_2.index ⟨(i 1).val / 8, hN⟩ (2 : Fin 4) * 512 + 512
    omega
  | ⟨3, _⟩ =>
    show win0_2.index ⟨(i 1).val / 8, hN⟩ (3 : Fin 4) * 512 ≤ (i 3).val ∧ (i 3).val < win0_2.index ⟨(i 1).val / 8, hN⟩ (3 : Fin 4) * 512 + 512
    omega

/-- THE RESULT ARRAY after the run is `G` of the two argument arrays. -/
theorem final (c : Dev nD) :
    (dats m 0 c).arrAt 2 cfg0.N = G (m ((c : Thread nD τ).loc main_arg0)) (m ((c : Thread nD τ).loc main_arg2)) :=
  (dats m 0 c).arrAt_eq_of_cover 2 _ (fun t _ => flushed_eq m c t) cover

/-- The kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.RefTerm.lean ====
/-
  The reference program's result as ONE composed term of its two live arguments, operation by operation as the
  program applies them: the channel totals and means, the variance routine (its own mean, the squared deviations,
  their totals, the divisor 262144 − 1 computed from the integer 1, the guard `divisor > 0` selecting the quotient
  over a not-a-number filler), then (x − mean) / sqrt(variance + ε) + shift.
-/
import proofs.«123054_j80616536146731_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The channel means, kept with unit spatial axes: the totals over axes 2 and 3 from 0, divided by 262144. -/
def refMean (x : (⟨S1x256x512x512, .f32⟩ : BufTy).Contents (Elt F)) : (⟨S1x256x1x1, .f32⟩ : BufTy).Contents (Elt F) :=
  Host.divf
    (broadcastInDim S1x256x1x1 ![0, 1] bcast_S1x256_S1x256x1x1_0_1
      (Host.reduceAdd x (constant S_ .f32 0x00000000#32) reducesTo_S1x256x512x512_S1x256_d2_3 h_S_))
    (broadcastInDim S1x256x1x1 ![] bcast_S_S1x256x1x1 (constant S_ .f32 0x48800000#32))

/-- The deviations from the channel means. -/
def refDev (x : (⟨S1x256x512x512, .f32⟩ : BufTy).Contents (Elt F)) : (⟨S1x256x512x512, .f32⟩ : BufTy).Contents (Elt F) :=
  subf x (broadcastInDim S1x256x512x512 ![0, 1, 2, 3] bcast_S1x256x1x1_S1x256x512x512_0_1_2_3 (refMean x))

/-- The variance routine's divisor: 262144 less the integer correction converted to a float. -/
def refCount (k : (⟨S_, .i32⟩ : BufTy).Contents (Elt F)) : (⟨S_, .f32⟩ : BufTy).Contents (Elt F) :=
  subf (constant S_ .f32 0x48800000#32) (sitofp .f32 k)

/-- The variance routine: totals of the squared deviations over the divisor, guarded by `divisor > 0`. -/
def refVar (x : (⟨S1x256x512x512, .f32⟩ : BufTy).Contents (Elt F)) (k : (⟨S_, .i32⟩ : BufTy).Contents (Elt F)) :
    (⟨S1x256x1x1, .f32⟩ : BufTy).Contents (Elt F) :=
  select (broadcastInDim S1x256x1x1 ![] bcast_S_S1x256x1x1 (cmpf .ogt (refCount k) (constant S_ .f32 0x00000000#32)))
    (Host.divf
      (broadcastInDim S1x256x1x1 ![0, 1] bcast_S1x256_S1x256x1x1_0_1
        (Host.reduceAdd (mulf (refDev x) (refDev x)) (constant S_ .f32 0x00000000#32) reducesTo_S1x256x512x512_S1x256_d2_3 h_S_))
      (broadcastInDim S1x256x1x1 ![] bcast_S_S1x256x1x1 (refCount k)))
    (broadcastInDim S1x256x1x1 ![] bcast_S_S1x256x1x1 (id (constant S_ .f32 0x7FC00000#32)))

/-- The reference's result: (x − mean) / sqrt(variance + ε) + shift, the shift laid along axis 1. -/
def refTerm (x : (⟨S1x256x512x512, .f32⟩ : BufTy).Contents (Elt F)) (b : (⟨S256, .f32⟩ : BufTy).Contents (Elt F)) :
    (⟨S1x256x512x512, .f32⟩ : BufTy).Contents (Elt F) :=
  addf
    (Host.divf (refDev x)
      (broadcastInDim S1x256x512x512 ![0, 1, 2, 3] bcast_S1x256x1x1_S1x256x512x512_0_1_2_3
        (Host.sqrt (addf (refVar x (constantI S_ 32 1#32))
          (broadcastInDim S1x256x1x1 ![] bcast_S_S1x256x1x1 (constant S_ .f32 0x3727C5AC#32))))))
    (broadcastInDim S1x256x512x512 ![0, 1, 2, 3] bcast_S1x256x1x1_S1x256x512x512_0_1_2_3
      (broadcastInDim S1x256x1x1 ![1] bcast_S256_S1x256x1x1_1 b))

end Cert.ReferenceIdeal.RefValue

end
-- ==== Proof.RefRun.lean ====
/-
  The reference program's run. The program is a straight line of tensor operations once its two outlined routines
  (the variance routine, and inside it the guarded selection) are unfolded at their calls: forty-one operations,
  each writing a buffer of its own. This module lists them in program order, shows that the program is that line,
  and reads the line's run back: on every device, from any memory with zero counters, every weakly fair execution
  terminates with the result buffer holding `refTerm` of the launch contents of the input and of the shift (no
  operation takes the scale argument as an operand, so the result does not depend on it), and with each of the three
  argument buffers holding what it held at launch. The two full-size sums over the
  spatial axes stay folded while the line is evaluated: the equation between the line's fold and `refTerm` never
  looks inside a sum.
-/
import proofs.«123054_j80616536146731_2_alg».proof.Proof.Gen.ReferenceIdeal
import proofs.«123054_j80616536146731_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's forty-one operations in order, the calls unfolded: seven of the main function (the channel totals
    from 0, their layout with unit spatial axes, the count 262144 and its layout, the means, the integer 1), then the
    variance routine's twenty over its own buffers (its own totals and means, the deviations, their squares, the
    divisor 262144 − 1, the totals of the squares and their layout, the quotient, the comparison `divisor > 0`, the
    not-a-number filler) with the guarded selection's three at its end (the filler converted to its own type, laid out,
    the selection, whose result is the variance), then the main function's remaining eleven (the deviations, ε added to
    the variance, the square root, the quotient, the shift laid along axis 1 and added). -/
abbrev ops : List (HloOp τ sig (Elt F)) :=
  [ nullary main_cst (constant S_ .f32 0x00000000#32),
    binary main_arg0 main_cst main_v0 (fun x v => Host.reduceAdd x v reducesTo_S1x256x512x512_S1x256_d2_3 h_S_),
    unary main_v0 main_v1 (broadcastInDim S1x256x1x1 ![0, 1] bcast_S1x256_S1x256x1x1_0_1),
    nullary main_cst_0 (constant S_ .f32 0x48800000#32),
    unary main_cst_0 main_v2 (broadcastInDim S1x256x1x1 ![] bcast_S_S1x256x1x1),
    binary main_v1 main_v2 main_v3 Host.divf,
    nullary main_c (constantI S_ 32 1#32),
    TRef.nullary main_call0.cst (constant S_ .f32 0x00000000#32),
    TRef.binary (.of main_arg0) main_call0.cst main_call0.v0 (fun x v => Host.reduceAdd x v reducesTo_S1x256x512x512_S1x256_d2_3 h_S_),
    TRef.unary main_call0.v0 main_call0.v1 (broadcastInDim S1x256x1x1 ![0, 1] bcast_S1x256_S1x256x1x1_0_1),
    TRef.nullary main_call0.cst_0 (constant S_ .f32 0x48800000#32),
    TRef.unary main_call0.cst_0 main_call0.v2 (broadcastInDim S1x256x1x1 ![] bcast_S_S1x256x1x1),
    TRef.binary main_call0.v1 main_call0.v2 main_call0.v3 Host.divf,
    TRef.unary main_call0.v3 main_call0.v4 (broadcastInDim S1x256x512x512 ![0, 1, 2, 3] bcast_S1x256x1x1_S1x256x512x512_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256x512x512_S1x256_d2_3 h_S_),
    TRef.unary main_call0.v9 main_call0.v10 (broadcastInDim S1x256x1x1 ![0, 1] bcast_S1x256_S1x256x1x1_0_1),
    TRef.unary main_call0.v8 main_call0.v11 (broadcastInDim S1x256x1x1 ![] bcast_S_S1x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256x1x1 ![] bcast_S_S1x256x1x1),
    TRef.ternary main_call0.v13 main_call0.v12 main_call0.call0.v1 main_call0.call0.v2
      (fun p a b => select (broadcastInDim S1x256x1x1 ![] bcast_S_S1x256x1x1 p) a b),
    unary main_v3 main_v5 (broadcastInDim S1x256x512x512 ![0, 1, 2, 3] bcast_S1x256x1x1_S1x256x512x512_0_1_2_3),
    binary main_arg0 main_v5 main_v6 subf,
    nullary main_cst_1 (constant S_ .f32 0x3727C5AC#32),
    unary main_cst_1 main_v7 (broadcastInDim S1x256x1x1 ![] bcast_S_S1x256x1x1),
    binary main_v4 main_v7 main_v8 addf,
    unary main_v8 main_v9 Host.sqrt,
    unary main_v9 main_v10 (broadcastInDim S1x256x512x512 ![0, 1, 2, 3] bcast_S1x256x1x1_S1x256x512x512_0_1_2_3),
    binary main_v6 main_v10 main_v11 Host.divf,
    unary main_arg2 main_v12 (broadcastInDim S1x256x1x1 ![1] bcast_S256_S1x256x1x1_1),
    unary main_v12 main_v13 (broadcastInDim S1x256x512x512 ![0, 1, 2, 3] bcast_S1x256x1x1_S1x256x512x512_0_1_2_3),
    binary main_v11 main_v13 main_v14 addf ]

-- forty-one binds re-associated: the rewrite under the chain recurses once per statement
set_option maxRecDepth 1024 in
/-- The program is that straight line: the two routines' definitions unfolded at their calls and the calls' buffer
    records at their fields, both sides are one chain of steps once sequencing is re-associated. -/
theorem main_eq (c : Dev nD) : main (F := F) c = seq ops := by
  simp only [main, fn_var.body, fn_where.body, seq, bind_assoc, pure_bind]
  rfl

attribute [local irreducible] Host.reduceAdd in
/-- The line's fold at the result buffer is `refTerm` of the contents of the input and of the shift: each
    operation's result at its own buffer is its function's value and at any other buffer what was there, the
    buffers told apart as references; what is left is the operations composed, which is `refTerm` with its
    definitions unfolded (the routine's buffers carry their types, so the transports along them are identities).
    The sums over the spatial axes are kept folded meanwhile. -/
theorem out_eq (V : Valuation τ sig (Elt F)) :
    after ops V (main_v14 : DevRef τ sig)
      = refTerm (V (main_arg0 : DevRef τ sig)) (V (main_arg2 : DevRef τ sig)) := by
  after_results_simp
  rfl

/-- No operation of the line writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub ..⟩

/-- On every device, for any float values, from any memory with zero counters: every weakly fair execution of the
    program terminates with the result buffer at `refTerm` of the launch contents of the input and the shift, and
    the three argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefValue

end
-- ==== Proof.RefRead.lean ====
/-
  The reference's composed term read at one index, on the extended reals.

  For an array x of shape [1, 256, 512, 512] and a shift b of shape [256], at channel c, row h, lane w:
    • the host's sum over the two spatial axes, read at (0, c), is its initial value plus ∑ h, ∑ w of the operand at
      (0, c, h, w) — rows outside, lanes inside (the sum over the source indices that keep (0, c) is regrouped as a
      fourfold sum over the coordinates, and the two kept coordinates are collapsed);
    • the mean stage at (0, c, 0, 0) is the channel's total divided by 262144;
    • the deviation stage at (0, c, h, w) is the entry less its channel's mean;
    • the total of the squared deviations at (0, c) is the channel's sum of squares;
    • the divisor stage is 262144 less the integer 1 converted exactly;
    • the variance stage at (0, c, 0, 0) is the sum of squares over that divisor when the divisor is positive, and the
      not-a-number word's value otherwise;
    • the result at (0, c, h, w) is the deviation divided by the square root of (variance + ε), plus the shift at c.
  Every broadcast is read at the index whose coordinates on the operand's unit axes are 0.
-/
import proofs.«123054_j80616536146731_2_alg».proof.Proof.RefTerm
import proofs.«123054_j80616536146731_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Gen
  Cert.ReferenceIdeal.RefValue

/-! ## A sum over a rank-4 index set as four nested sums -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f,
    Fintype.sum_prod_type]
  refine Finset.sum_congr rfl fun a _ => ?_
  rw [Fintype.sum_prod_type]
  refine Finset.sum_congr rfl fun b _ => ?_
  rw [Fintype.sum_prod_type]
  rfl

/-- Dropping the two spatial coordinates of (a, b, h, w) leaves (a, b). -/
theorem drop_ix4 (a : Fin 1) (b : Fin 256) (h w : Fin 512) :
    reducesTo_S1x256x512x512_S1x256_d2_3.drop (ix4 a b h w) = ix2 a b := by
  funext k
  match k with
  | ⟨0, _⟩ => exact Fin.ext rfl
  | ⟨1, _⟩ => exact Fin.ext rfl

theorem ix2_unit_inj (a : Fin 1) (b c : Fin 256) : (ix2 a b = ix2 (0 : Fin 1) c) ↔ b = c := by
  constructor
  · intro h; exact congrFun h 1
  · intro h; subst h; obtain rfl : a = 0 := Subsingleton.elim _ _; rfl

/-- THE HOST SUM OVER ROWS AND LANES at (0, c): the initial value plus the double sum, rows outside, lanes inside. -/
theorem hostSum_apply (x : Cert.ChanNorm.SX.Idx → EReal) (init : EReal) (c : Fin 256) :
    Ideal.hostReduceAdd reducesTo_S1x256x512x512_S1x256_d2_3 x init (ix2 0 c)
      = init + ∑ h : Fin 512, ∑ w : Fin 512, x (ix4 0 c h w) := by
  unfold Ideal.hostReduceAdd
  refine congrArg (init + ·) ?_
  rw [Finset.sum_filter, sum_idx4, Fin.sum_univ_one]
  have key : ∀ b : Fin 256,
      (∑ h : Fin 512, ∑ w : Fin 512,
        if reducesTo_S1x256x512x512_S1x256_d2_3.drop (ix4 (0 : Fin 1) b h w) = ix2 (0 : Fin 1) c then x (ix4 0 b h w) else 0)
        = if b = c then ∑ h : Fin 512, ∑ w : Fin 512, x (ix4 0 b h w) else 0 := by
    intro b
    by_cases hb : b = c
    · subst hb
      rw [if_pos rfl]
      refine Finset.sum_congr rfl fun h _ => Finset.sum_congr rfl fun w _ => ?_
      rw [drop_ix4, if_pos rfl]
    · rw [if_neg hb]
      refine Finset.sum_eq_zero fun h _ => Finset.sum_eq_zero fun w _ => ?_
      rw [drop_ix4, if_neg (fun e => hb ((ix2_unit_inj 0 b c).1 e))]
  rw [Finset.sum_congr rfl fun b _ => key b, Finset.sum_ite_eq' Finset.univ c, if_pos (Finset.mem_univ c)]

/-! ## The reference's stages read at an index -/

/-- A scalar broadcast into [1,256,1,1] reads the scalar. -/
theorem bcastScalar_apply {α : Type} (v : S_.Idx → α) (j : S1x256x1x1.Idx) :
    broadcastInDim S1x256x1x1 ![] bcast_S_S1x256x1x1 v j = v ix0 :=
  broadcastInDim_scalar_apply bcast_S_S1x256x1x1 v j

/-- A [1,256] array laid on the first two axes of [1,256,1,1] reads its (0, c) entry at (0, c, 0, 0). -/
theorem bcastChan_apply {α : Type} (v : S1x256.Idx → α) (c : Fin 256) :
    broadcastInDim S1x256x1x1 ![0, 1] bcast_S1x256_S1x256x1x1_0_1 v (ix4 0 c 0 0) = v (ix2 0 c) :=
  broadcastInDim_apply _ _ v _ (ix2 0 c) (fun a => by
    match a with
    | ⟨0, _⟩ => rfl
    | ⟨1, _⟩ => rfl)

/-- A [1,256,1,1] array stretched over the spatial axes reads its (0, c, 0, 0) entry at (0, c, h, w). -/
theorem bcastSpatial_apply {α : Type} (v : S1x256x1x1.Idx → α) (c : Fin 256) (h w : Fin 512) :
    broadcastInDim S1x256x512x512 ![0, 1, 2, 3] bcast_S1x256x1x1_S1x256x512x512_0_1_2_3 v (ix4 0 c h w)
      = v (ix4 0 c 0 0) :=
  broadcastInDim_apply _ _ v _ (ix4 0 c 0 0) (fun a => by
    match a with
    | ⟨0, _⟩ => rfl
    | ⟨1, _⟩ => rfl
    | ⟨2, _⟩ => rfl
    | ⟨3, _⟩ => rfl)

/-- A [256] array laid along axis 1 of [1,256,1,1] reads its entry c at (0, c, 0, 0). -/
theorem bcastShift_apply {α : Type} (v : S256.Idx → α) (c : Fin 256) :
    broadcastInDim S1x256x1x1 ![1] bcast_S256_S1x256x1x1_1 v (ix4 0 c 0 0) = v (ix1 c) :=
  broadcastInDim_apply _ _ v _ (ix1 c) (fun a => by
    match a with
    | ⟨0, _⟩ => rfl)

/-- The host's total from the zero word over rows and lanes, at (0, c). -/
theorem hostTotal_apply (y : Cert.ChanNorm.SX.Idx → EReal) (c : Fin 256) :
    Host.reduceAdd (F := Ideal) (φ := .f32) y (constant (F := Ideal) S_ .f32 0x00000000#32)
        reducesTo_S1x256x512x512_S1x256_d2_3 h_S_ (ix2 0 c)
      = ∑ h : Fin 512, ∑ w : Fin 512, y (ix4 0 c h w) := by
  rw [hostReduceAdd_apply, hostSum_apply, constant_apply, Ideal.ofBits_zero_f32, zero_add]

/-- (i) The mean stage at (0, c, 0, 0) is channel c's mean. -/
theorem refMean_apply (x : Cert.ChanNorm.SX.Idx → EReal) (c : Fin 256) :
    refMean (F := Ideal) x (ix4 0 c 0 0) = Cert.ChanNorm.mean x c := by
  unfold refMean Cert.ChanNorm.mean Cert.ChanNorm.total Cert.ChanNorm.cN
  rw [hostDivf_apply, bcastChan_apply, bcastScalar_apply, hostTotal_apply, constant_apply]

/-- (ii) The deviation stage at (0, c, h, w) is the entry's deviation from its channel's mean. -/
theorem refDev_apply (x : Cert.ChanNorm.SX.Idx → EReal) (c : Fin 256) (h w : Fin 512) :
    refDev (F := Ideal) x (ix4 0 c h w) = Cert.ChanNorm.dev x c h w := by
  unfold refDev Cert.ChanNorm.dev
  rw [subf_apply, bcastSpatial_apply, refMean_apply]

/-- (iii) The host's total of the squared deviations at (0, c) is channel c's sum of squares. -/
theorem refSumsq_apply (x : Cert.ChanNorm.SX.Idx → EReal) (c : Fin 256) :
    Host.reduceAdd (F := Ideal) (φ := .f32) (mulf (refDev (F := Ideal) x) (refDev (F := Ideal) x))
        (constant (F := Ideal) S_ .f32 0x00000000#32) reducesTo_S1x256x512x512_S1x256_d2_3 h_S_ (ix2 0 c)
      = Cert.ChanNorm.sumsq x c := by
  unfold Cert.ChanNorm.sumsq
  rw [hostTotal_apply]
  refine Finset.sum_congr rfl fun h _ => Finset.sum_congr rfl fun w _ => ?_
  rw [mulf_apply, refDev_apply]

/-- (iv) The divisor stage at the scalar index is 262144 less the integer 1 converted exactly. -/
theorem refCount_apply :
    refCount (F := Ideal) (constantI S_ 32 1#32) ix0 = Cert.ChanNorm.count := rfl

/-- (v) The variance stage at (0, c, 0, 0) is the guarded quotient. -/
theorem refVar_apply (x : Cert.ChanNorm.SX.Idx → EReal) (c : Fin 256) :
    refVar (F := Ideal) x (constantI S_ 32 1#32) (ix4 0 c 0 0) = Cert.ChanNorm.varRef x c := by
  unfold refVar Cert.ChanNorm.varRef
  rw [select_apply, bcastScalar_apply, bcastScalar_apply, hostDivf_apply, bcastChan_apply, bcastScalar_apply,
    refSumsq_apply, cmpf_apply, refCount_apply, constant_apply, id, constant_apply]
  rfl

/-- (vi) THE REFERENCE'S RESULT at (0, c, h, w). -/
theorem refTerm_apply (x : Cert.ChanNorm.SX.Idx → EReal) (b : Cert.ChanNorm.SB.Idx → EReal) (c : Fin 256)
    (h w : Fin 512) :
    refTerm (F := Ideal) x b (ix4 0 c h w) = Cert.ChanNorm.entryRef x b c h w := by
  unfold refTerm Cert.ChanNorm.entryRef Cert.ChanNorm.cEps
  rw [addf_apply, hostDivf_apply, refDev_apply, bcastSpatial_apply, bcastSpatial_apply, bcastShift_apply]
  show Ideal.div _ (Ideal.sqrt (refVar (F := Ideal) x (constantI S_ 32 1#32) (ix4 0 c 0 0)
      + broadcastInDim S1x256x1x1 ![] bcast_S_S1x256x1x1 (constant (F := Ideal) S_ .f32 0x3727C5AC#32) (ix4 0 c 0 0))) + _ = _
  rw [refVar_apply, bcastScalar_apply, constant_apply]

end Cert.ReferenceIdeal.RefRead

end
-- ==== Proof.Algebra.lean ====
/-
  The algebra on the extended reals that joins the two written forms of the normalised entry.

  One form multiplies a deviation by the inverse square root of (variance + ε), with the variance a quotient
  by the constant 262143; the other divides the deviation by the square root of (variance + ε), with the
  variance a quotient by 262144 − 1 computed from an integer 1 and chosen by the guard "that divisor is > 0".

  * The three binary32 words: 0x48800000 is 2²³ · 2⁻⁵ = 262144; 0x487FFFC0 is 16777152 · 2⁻⁶ = 262143;
    0x3727C5AC is 10995116 · 2⁻⁴⁰, of which only positivity is used.
  * 262144 − 1 = 262143 on the reals, so the computed divisor IS the constant one, and it is > 0, so the guard
    takes its first branch: the two variances are the same extended real, with no hypothesis on the entries.
  * When every entry of the array is a real, so are a channel's total, its mean, each deviation and the sum of
    the squared deviations; the last is ≥ 0, hence the variance is a real v ≥ 0 and v + ε is a real y > 0.
  * For a real y > 0 and ANY extended real d,  d · y^(-1/2) = d · (√y)⁻¹ = d / √y : √y is a nonzero real, and the
    quotient by a nonzero real is the product with its reciprocal, at d = ±∞ too.
  Finiteness of the entries is really used: with an infinite entry the variance + ε can be −∞, where the
  inverse square root and the quotient by the square root are different conventions.
-/
import proofs.«123054_j80616536146731_2_alg».proof.Proof.Spec

noncomputable section

namespace Cert.ChanNorm

open Idealize.ShloMosaic Idealize.ShloMosaic.ValueIdx

/-! ## The constants -/

/-- 0x48800000 : exponent field 145, fraction 0, so 2²³ · 2^(145 − 127 − 23) = 2¹⁸ = 262144. -/
theorem cN_eq : cN = ((262144 : ℝ) : EReal) := by
  simp [cN, Ideal.ofBits, Ideal.ieee]
  rw [← EReal.coe_mul]
  norm_num

/-- 0x487FFFC0 : exponent field 144, fraction 0x7FFFC0, so (2²³ + 8388544) · 2^(144 − 127 − 23) = 16777152 / 64 = 262143. -/
theorem cN1_eq : cN1 = ((262143 : ℝ) : EReal) := by
  simp [cN1, Ideal.ofBits, Ideal.ieee]
  rw [← EReal.coe_mul]
  norm_num

/-- 0x3727C5AC : a positive normal number, 10995116 · 2⁻⁴⁰; only its sign matters. -/
theorem cEps_pos : ∃ e : ℝ, 0 < e ∧ cEps = (e : EReal) := by
  refine ⟨10995116 * (2 ^ 40)⁻¹, by positivity, ?_⟩
  simp [cEps, Ideal.ofBits, Ideal.ieee]

/-- The all-zero word is the real 0. -/
theorem zero_word : Ideal.ofBits .f32 0x00000000#32 = 0 := by
  simp [Ideal.ofBits, Ideal.ieee]

/-- 262144 − 1 = 262143: the computed divisor is the constant one. -/
theorem count_eq : count = cN1 := by
  have h1 : ((1#32 : BitVec 32).toInt) = 1 := by decide
  rw [count, cN_eq, cN1_eq, h1, Int.cast_one, ← EReal.coe_sub]
  norm_num

/-- 262143 > 0: the guard on the divisor holds. -/
theorem count_guard : Ideal.cmp .ogt cN1 (Ideal.ofBits .f32 0x00000000#32) = 1 := by
  have h : (0 : EReal) < ((262143 : ℝ) : EReal) := by exact_mod_cast (by norm_num : (0 : ℝ) < 262143)
  simp [Ideal.cmp, cN1_eq, zero_word, h]

/-! ## Sums of reals -/

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The inverse square root against the quotient by the square root -/

/-- For a real y > 0 and any extended real d: d · y^(-1/2) = d / √y. Both sides are d · (√y)⁻¹
    with √y a nonzero real. -/
theorem mul_rsqrt_eq_div_sqrt (d : EReal) {y : ℝ} (hy : 0 < y) :
    d * Ideal.rsqrt (y : EReal) = Ideal.div d (Ideal.sqrt (y : EReal)) := by
  have hs : Real.sqrt y ≠ 0 := (Real.sqrt_pos.mpr hy).ne'
  rw [Ideal.rsqrt_coe, Ideal.sqrt_coe, if_neg (not_lt.mpr hy.le), if_neg (not_lt.mpr hy.le), if_neg hy.ne',
    Ideal.div_coe hs, one_div]

/-! ## Everything about a channel of real entries is real -/

section Real

variable (x : SX.Idx → EReal) (hx : ∀ i, ∃ r : ℝ, x i = (r : EReal))
include hx

/-- A channel's total is a real. -/
theorem total_real (c : Fin 256) : ∃ t : ℝ, total x c = (t : EReal) := by
  choose r hr using hx
  refine ⟨∑ h : Fin 512, ∑ w : Fin 512, r (ix4 0 c h w), ?_⟩
  simp only [total, hr, coe_sum]

/-- A channel's mean is a real: the total times the real 1/262144. -/
theorem mean_real (c : Fin 256) : ∃ m : ℝ, mean x c = (m : EReal) := by
  obtain ⟨t, ht⟩ := total_real x hx c
  refine ⟨t * (1 / 262144), ?_⟩
  rw [mean, ht, cN_eq, Ideal.div_coe (by norm_num), EReal.coe_mul]

/-- Each deviation from the mean is a real. -/
theorem dev_real (c : Fin 256) (h w : Fin 512) : ∃ d : ℝ, dev x c h w = (d : EReal) := by
  obtain ⟨m, hm⟩ := mean_real x hx c
  obtain ⟨r, hr⟩ := hx (ix4 0 c h w)
  exact ⟨r - m, by rw [dev, hm, hr, EReal.coe_sub]⟩

/-- The sum of the squared deviations is a real, and it is ≥ 0. -/
theorem sumsq_real (c : Fin 256) : ∃ q : ℝ, 0 ≤ q ∧ sumsq x c = (q : EReal) := by
  choose d hd using dev_real x hx c
  refine ⟨∑ h : Fin 512, ∑ w : Fin 512, d h w * d h w, ?_, ?_⟩
  · exact Finset.sum_nonneg fun h _ => Finset.sum_nonneg fun w _ => mul_self_nonneg _
  · simp only [sumsq, hd, coe_sum, EReal.coe_mul]

/-- The unbiased variance is a real, and it is ≥ 0. -/
theorem var_real (c : Fin 256) : ∃ v : ℝ, 0 ≤ v ∧ var x c = (v : EReal) := by
  obtain ⟨q, hq0, hq⟩ := sumsq_real x hx c
  refine ⟨q * (1 / 262143), by positivity, ?_⟩
  rw [var, hq, cN1_eq, Ideal.div_coe (by norm_num), EReal.coe_mul]

end Real

/-! ## The two forms agree -/

/-- The guarded quotient by the computed divisor is the quotient by 262143 (no hypothesis on the entries). -/
theorem varRef_eq_var (x : SX.Idx → EReal) (c : Fin 256) : varRef x c = var x c := by
  rw [varRef, count_eq, if_pos count_guard, var]

/-- On an array of real entries, dividing the deviation by the square root of (variance + ε) is multiplying it
    by the inverse square root: variance + ε is a real y > 0. -/
theorem entryRef_eq_entry (x : SX.Idx → EReal) (b : SB.Idx → EReal) (hx : ∀ i, ∃ r : ℝ, x i = (r : EReal))
    (c : Fin 256) (h w : Fin 512) : entryRef x b c h w = entry x b c h w := by
  obtain ⟨v, hv0, hv⟩ := var_real x hx c
  obtain ⟨e, he0, he⟩ := cEps_pos
  have hy : 0 < v + e := by positivity
  rw [entryRef, entry, varRef_eq_var, hv, he, ← EReal.coe_add, mul_rsqrt_eq_div_sqrt _ hy]

end Cert.ChanNorm

end
-- ==== Proof.Finite.lean ====
/-
  Finiteness of the array's entries, from the precondition.

  The precondition is the conjunction of three statements "every entry of this array has |·| < +∞", one per
  argument, each written as: take absolute values, compare each with the word of +∞ (0x7F800000), and fold
  the resulting bits by "and" over every axis, starting from 1; the three results are joined by "and" and the
  claim is that the whole is 1.

  * A conjunction of one-bit words is 1 exactly when both are 1, so the first fold is 1.
  * A fold by "and" over all axes that ends at 1 met a 1 at every index, so |x i| < +∞ at every index i.
  * On the extended reals |y| is max y (−y), and 0x7F800000 (all-ones exponent, zero fraction, sign 0) is ⊤.
    max y (−y) < ⊤ fails at y = ⊤ (the maximum is ⊤) and at y = ⊥ (−⊥ = ⊤), so y is a real.
  Only the first argument's finiteness is derived; the other two conjuncts are not used.
-/
import proofs.«123054_j80616536146731_2_alg».proof.Proof.Gen.Pre_finite_inputs
import Idealize.ShloMosaic.Lib.ReduceAll
import Idealize.ShloMosaic.PureOps.Ideal.Laws
import Idealize.ShloMosaic.Lib.ValueIdx

noncomputable section

namespace Cert.ChanNorm

open Idealize.ShloMosaic Idealize.ShloMosaic.ValueIdx

/-- The shape with no axes has exactly one index. -/
instance subsingleton_scalarIdx : Subsingleton Cert.Pre_finite_inputs.S_.Idx :=
  ⟨fun a b => funext fun d => d.elim0⟩

/-- 0x7F800000 : sign 0, exponent field all ones, fraction 0, that is +∞. -/
theorem inf_word : Ideal.ofBits .f32 0x7F800000#32 = ⊤ := by
  simp [Ideal.ofBits, Ideal.ieee]

/-- An extended real whose absolute value max y (−y) is below ⊤ is a real: at ⊤ the maximum is ⊤, and at ⊥
    it is −⊥ = ⊤. -/
theorem real_of_abs_lt_top (y : EReal) (h : Ideal.cmp .olt (max y (-y)) ⊤ = 1#1) : ∃ r : ℝ, y = (r : EReal) := by
  induction y using EReal.rec with
  | bot => simp [Ideal.cmp] at h
  | coe r => exact ⟨r, rfl⟩
  | top => simp [Ideal.cmp] at h

/-- Under the precondition every entry of the first argument is a real. -/
theorem finite_of_pre (x : FVec Ideal Cert.Pre_finite_inputs.S1x256x512x512 .f32)
    (g b : FVec Ideal Cert.Pre_finite_inputs.S256 .f32)
    (hpre : Cert.Pre_finite_inputs.fn (F := Ideal) x g b = fun _ => 1#1) : ∀ i, ∃ r : ℝ, x i = (r : EReal) := by
  intro i
  -- the one result bit, with the function's chain of operations in view
  have h0 := congrFun hpre ValueIdx.ix0
  dsimp only [Cert.Pre_finite_inputs.fn] at h0
  -- (A ∧ B) ∧ C = 1 gives A = 1, the fold over the first argument
  have h1 := (IntOp.andi_eq_one.1 h0).1
  have h2 := (IntOp.andi_eq_one.1 h1).1
  -- a fold by "and" over every axis that is 1 has a 1 at index i
  have h3 := Host.reduce_andi_all _ _ _ _ _ h2 i
  -- that bit is the comparison |x i| < (the word of +∞), the constant read through its broadcast
  change Ideal.cmp .olt (max (x i) (-(x i))) (Ideal.ofBits .f32 0x7F800000#32) = 1#1 at h3
  rw [inf_word] at h3
  exact real_of_abs_lt_top _ h3

end Cert.ChanNorm

end
-- ==== Proof.lean ====
/-
  Per-channel normalisation with the unbiased variance, plus a per-channel shift: the kernel against its reference.

  For an array x of shape [1, 256, 512, 512] and a shift β of shape [256] (the scale argument is unused by both
  programs), channel c has mean μ c = (∑ h, ∑ w, x(0,c,h,w)) / 262144, deviations d = x − μ c, and unbiased variance
  v c = (∑ h, ∑ w, d²) / 262143; the result at (0, c, h, w) is d · (v c + ε)^(-1/2) + β c  (`Cert.ChanNorm.G`).

  The kernel walks the channels eight at a time over a grid of 32 points. Each point sums its block along the lanes and
  then along the rows, which on the extended reals is the iterated sum, multiplies the deviations by the inverse
  square root, and adds the shift; the 32 blocks tile the result, so its result array is `G` of the arguments
  (`Cert.KernelIdeal.Whole.run`) — no finiteness is needed for this.

  The reference sums both spatial axes at once (the same sum, regrouped), computes the divisor as 262144 − 1 from the
  integer 1 and guards the quotient by `divisor > 0` (the divisor is 262143 > 0, so the guard selects the quotient), and
  DIVIDES the deviations by the square root of (variance + ε). With every entry of x finite, the variance is a
  nonnegative real and ε a positive one, so variance + ε is a positive real y, where d / √y = d · (√y)⁻¹ = d · y^(-1/2)
  for every extended real d. Without finiteness variance + ε could be −∞, where the two forms differ: this is the one
  place the precondition is used.

  The three frames: the two kernels' are the generated ones; the reference's is its run with the result dropped.
  Nothing was rewritten between the kernel and its idealisation, so that conjunct is trivial.
-/
import proofs.«123054_j80616536146731_2_alg».proof.Defs
import proofs.«123054_j80616536146731_2_alg».proof.Proof.Gen.Kernel
import proofs.«123054_j80616536146731_2_alg».proof.Proof.Gen.Kernel.Skeleton
import proofs.«123054_j80616536146731_2_alg».proof.Proof.Gen.Kernel.Launch
import proofs.«123054_j80616536146731_2_alg».proof.Proof.Gen.Kernel.Points
import proofs.«123054_j80616536146731_2_alg».proof.Proof.Gen.Kernel.Frame
import proofs.«123054_j80616536146731_2_alg».proof.Proof.Gen.KernelIdeal
import proofs.«123054_j80616536146731_2_alg».proof.Proof.Gen.KernelIdeal.Skeleton
import proofs.«123054_j80616536146731_2_alg».proof.Proof.Gen.KernelIdeal.Launch
import proofs.«123054_j80616536146731_2_alg».proof.Proof.Gen.KernelIdeal.Points
import proofs.«123054_j80616536146731_2_alg».proof.Proof.Gen.KernelIdeal.Frame
import proofs.«123054_j80616536146731_2_alg».proof.Proof.Gen.KernelIdeal.Value
import proofs.«123054_j80616536146731_2_alg».proof.Proof.Gen.ReferenceIdeal
import proofs.«123054_j80616536146731_2_alg».proof.Proof.Gen.Pre_finite_inputs
import proofs.«123054_j80616536146731_2_alg».proof.Proof.KernelArray
import proofs.«123054_j80616536146731_2_alg».proof.Proof.RefRun
import proofs.«123054_j80616536146731_2_alg».proof.Proof.RefRead
import proofs.«123054_j80616536146731_2_alg».proof.Proof.Algebra
import proofs.«123054_j80616536146731_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- With every entry of the array finite, the reference's composed term is the one function `G`: index by index the
    reference-shaped entry (`Cert.ReferenceIdeal.RefRead.refTerm_apply`) is the normalised entry
    (`Cert.ChanNorm.entryRef_eq_entry`). -/
theorem ref_eq_G (x : Cert.ChanNorm.SX.Idx → EReal) (b : Cert.ChanNorm.SB.Idx → EReal)
    (hx : ∀ i, ∃ r : ℝ, x i = (r : EReal)) :
    Cert.ReferenceIdeal.RefValue.refTerm (F := Ideal) x b = Cert.ChanNorm.G x b := by
  funext i
  obtain ⟨c, h, w, rfl⟩ : ∃ (c : Fin 256) (h w : Fin 512), i = ix4 0 c h w :=
    ⟨i 1, i 2, i 3, funext fun a => by
      match a with
      | ⟨0, _⟩ => exact Fin.ext (by have h0 : (i 0).val < 1 := (i 0).isLt; show (i 0).val = 0; omega)
      | ⟨1, _⟩ => rfl
      | ⟨2, _⟩ => rfl
      | ⟨3, _⟩ => rfl⟩
  rw [Cert.ReferenceIdeal.RefRead.refTerm_apply, Cert.ChanNorm.G_ix4, Cert.ChanNorm.entryRef_eq_entry x b hx c h w]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result array at `G` of the argument arrays: the kernel's always, the reference's because the
    precondition makes every entry of the array finite. -/
theorem algebraic : Cert.algebraic_KernelIdeal_ReferenceIdeal := by
  intro m ρ m' ρ' hpre hagree
  refine ⟨fun c => Cert.ChanNorm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.2]
  exact ref_eq_G _ _ (Cert.ChanNorm.finite_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
